-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x6400000 : Shape := ⟨2, ![2, 6400000]⟩
abbrev S6400000x4 : Shape := ⟨2, ![6400000, 4]⟩
abbrev S16x14 : Shape := ⟨2, ![16, 14]⟩
abbrev S16 : Shape := ⟨1, ![16]⟩
abbrev S8x16 : Shape := ⟨2, ![8, 16]⟩
abbrev S8 : Shape := ⟨1, ![8]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S6400000x4 : S_.BroadcastsInDim S6400000x4 (![] : Fin 0 → Fin S6400000x4.rank)
  reducesTo_S6400000x4_S_d0_1 : S6400000x4.ReducesTo [0, 1] S_
  bcast_S_S16x14 : S_.BroadcastsInDim S16x14 (![] : Fin 0 → Fin S16x14.rank)
  reducesTo_S16x14_S_d0_1 : S16x14.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S8x16 .f32) (main_v33 : IVec S_ 1) : IVec S_ 1 :=
  let main_v34 : FVec F S8x16 .f32 := Host.absf main_arg8
  let main_cst_12 : FVec F S_ .f32 := constant S_ .f32 0x7F800000#32
  let main_v35 : FVec F S8x16 .f32 := broadcastInDim S8x16 ![] bcast_S_S8x16 main_cst_12
  let main_v36 : IVec S8x16 1 := cmpf .olt main_v34 main_v35
  let main_c_13 : IVec S_ 1 := constantI S_ 1 1#1
  let main_v37 : IVec S_ 1 := (fun x v => Host.reduce IntOp.andi x v reducesTo_S8x16_S_d0_1 h_S_) main_v36 main_c_13
  let main_v38 : IVec S_ 1 := andi main_v33 main_v37
  main_v38

def fn_part1 {F : FTy → Type} [FloatOps F] (main_arg5 : FVec F S16x14 .f32) (main_arg6 : FVec F S8x16 .f32) (main_arg7 : FVec F S8 .f32) (main_arg8 : FVec F S8x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x14 .f32 := Host.absf main_arg5
  let main_cst_6 : FVec F S_ .f32 := constant S_ .f32 0x7F800000#32
  let main_v20 : FVec F S16x14 .f32 := broadcastInDim S16x14 ![] bcast_S_S16x14 main_cst_6
  let main_v21 : IVec S16x14 1 := cmpf .olt main_v19 main_v20
  let main_c_7 : IVec S_ 1 := constantI S_ 1 1#1
  let main_v22 : IVec S_ 1 := (fun x v => Host.reduce IntOp.andi x v reducesTo_S16x14_S_d0_1 h_S_) main_v21 main_c_7
  let main_v23 : IVec S_ 1 := andi main_v18 main_v22
  let main_v24 : FVec F S8x16 .f32 := Host.absf main_arg6
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_v33

def fn {F : FTy → Type} [FloatOps F] (main_arg0 : FVec F S100000x14 .f32) (main_arg1 : IVec S2x6400000 32) (main_arg2 : FVec F S6400000x4 .f32) (main_arg3 : FVec F S16x14 .f32) (main_arg4 : FVec F S16 .f32) (main_arg5 : FVec F S16x14 .f32) (main_arg6 : FVec F S8x16 .f32) (main_arg7 : FVec F S8 .f32) (main_arg8 : FVec F S8x16 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S6400000x4 .f32 := Host.absf main_arg2
  let main_cst_0 : FVec F S_ .f32 := constant S_ .f32 0x7F800000#32
  let main_v5 : FVec F S6400000x4 .f32 := broadcastInDim S6400000x4 ![] bcast_S_S6400000x4 main_cst_0
  let main_v6 : IVec S6400000x4 1 := cmpf .olt main_v4 main_v5
  let main_c_1 : IVec S_ 1 := constantI S_ 1 1#1
  let main_v7 : IVec S_ 1 := (fun x v => Host.reduce IntOp.andi x v reducesTo_S6400000x4_S_d0_1 h_S_) main_v6 main_c_1
  let main_v8 : IVec S_ 1 := andi main_v3 main_v7
  let main_v9 : FVec F S16x14 .f32 := Host.absf main_arg3
  let main_cst_2 : FVec F S_ .f32 := constant S_ .f32 0x7F800000#32
  let main_v10 : FVec F S16x14 .f32 := broadcastInDim S16x14 ![] bcast_S_S16x14 main_cst_2
  let main_v11 : IVec S16x14 1 := cmpf .olt main_v9 main_v10
  let main_c_3 : IVec S_ 1 := constantI S_ 1 1#1
  let main_v12 : IVec S_ 1 := (fun x v => Host.reduce IntOp.andi x v reducesTo_S16x14_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_v13 main_v16
-- ==== Kernel.lean ====
abbrev S100000x14 : Shape := ⟨2, ![100000, 14]⟩
abbrev S2x6400000 : Shape := ⟨2, ![2, 6400000]⟩
abbrev S6400000x4 : Shape := ⟨2, ![6400000, 4]⟩
abbrev S16x14 : Shape := ⟨2, ![16, 14]⟩
abbrev S16 : Shape := ⟨1, ![16]⟩
abbrev S8x16 : Shape := ⟨2, ![8, 16]⟩
abbrev S8 : Shape := ⟨1, ![8]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S6400000x14 : Shape := ⟨2, ![6400000, 14]⟩
abbrev S1x16 : Shape := ⟨2, ![1, 16]⟩
abbrev S100000x1 : Shape := ⟨2, ![100000, 1]⟩
abbrev S100000x16 : Shape := ⟨2, ![100000, 16]⟩
abbrev S10000x14 : Shape := ⟨2, ![10000, 14]⟩
abbrev S10000x1 : Shape := ⟨2, ![10000, 1]⟩
abbrev S10000x16 : Shape := ⟨2, ![10000, 16]⟩
abbrev S14x16 : Shape := ⟨2, ![14, 16]⟩
abbrev S6400000x16 : Shape := ⟨2, ![6400000, 16]⟩
abbrev S1x8 : Shape := ⟨2, ![1, 8]⟩
abbrev S100000x8 : Shape := ⟨2, ![100000, 8]⟩
abbrev S10000x8 : Shape := ⟨2, ![10000, 8]⟩
abbrev S16x8 : Shape := ⟨2, ![16, 8]⟩

abbrev nBuf : Space → Nat
  | .hbm => 51
  | .vmem => 22
  | .smem => 0
  | _ => 0

abbrev bufTy : (tb : Table) → Fin (tcTables nBuf tb) → BufTy
  | .hbm, ⟨0, _⟩ => ⟨S100000x14, .f32⟩
  | .hbm, ⟨1, _⟩ => ⟨S2x6400000, .i32⟩
  | .hbm, ⟨2, _⟩ => ⟨S6400000x4, .f32⟩
  | .hbm, ⟨3, _⟩ => ⟨S16x14, .f32⟩
  | .hbm, ⟨4, _⟩ => ⟨S16, .f32⟩
  | .hbm, ⟨5, _⟩ => ⟨S16x14, .f32⟩
  | .hbm, ⟨6, _⟩ => ⟨S8x16, .f32⟩
  | .hbm, ⟨7, _⟩ => ⟨S8, .f32⟩
  | .hbm, ⟨8, _⟩ => ⟨S8x16, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .f32⟩
  | .hbm, ⟨14, _⟩ => ⟨S6400000, .f32⟩
  | .hbm, ⟨15, _⟩ => ⟨S_, .f32⟩
  | .hbm, ⟨16, _⟩ => ⟨S100000, .f32⟩
  | .hbm, ⟨17, _⟩ => ⟨S6400000x1, .i32⟩
  | .hbm, ⟨18, _⟩ => ⟨S100000, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x14, .f32⟩
  | .hbm, ⟨28, _⟩ => ⟨S_, .f32⟩
  | .hbm, ⟨29, _⟩ => ⟨S100000x14, .f32⟩
  | .hbm, ⟨30, _⟩ => ⟨S6400000x1, .i32⟩
  | .hbm, ⟨31, _⟩ => ⟨S100000x14, .f32⟩
  | .hbm, ⟨32, _⟩ => ⟨S1x16, .f32⟩
  | .hbm, ⟨33, _⟩ => ⟨S100000x1, .f32⟩
  | .hbm, ⟨34, _⟩ => ⟨S100000x16, .f32⟩
  | .hbm, ⟨35, _⟩ => ⟨S_, .i32⟩
  | .hbm, ⟨36, _⟩ => ⟨S6400000, .i32⟩
  | .hbm, ⟨37, _⟩ => ⟨S6400000, .i1⟩
  | .hbm, ⟨38, _⟩ => ⟨S_, .i32⟩
  | .hbm, ⟨39, _⟩ => ⟨S6400000, .i32⟩
  | .hbm, ⟨40, _⟩ => ⟨S6400000, .i32⟩
  | .hbm, ⟨41, _⟩ => ⟨S6400000, .i32⟩
  | .hbm, ⟨42, _⟩ => ⟨S6400000x1, .i32⟩
  | .hbm, ⟨43, _⟩ => ⟨S6400000x16, .f32⟩
  | .hbm, ⟨44, _⟩ => ⟨S_, .f32⟩
  | .hbm, ⟨45, _⟩ => ⟨S100000x16, .f32⟩
  | .hbm, ⟨46, _⟩ => ⟨S6400000x1, .i32⟩
  | .hbm, ⟨47, _⟩ => ⟨S100000x16, .f32⟩
  | .hbm, ⟨48, _⟩ => ⟨S1x8, .f32⟩
  | .hbm, ⟨49, _⟩ => ⟨S100000x1, .f32⟩
  | .hbm, ⟨50, _⟩ => ⟨S100000x8, .f32⟩
  | .local _ .vmem, ⟨0, _⟩ => ⟨S10000x14, .f32⟩
  | .local _ .vmem, ⟨1, _⟩ => ⟨S10000x14, .f32⟩
  | .local _ .vmem, ⟨2, _⟩ => ⟨S10000x14, .f32⟩
  | .local _ .vmem, ⟨3, _⟩ => ⟨S10000x14, .f32⟩
  | .local _ .vmem, ⟨4, _⟩ => ⟨S10000x1, .f32⟩
  | .local _ .vmem, ⟨5, _⟩ => ⟨S10000x1, .f32⟩
  | .local _ .vmem, ⟨6, _⟩ => ⟨S16x14, .f32⟩
  | .local _ .vmem, ⟨7, _⟩ => ⟨S1x16, .f32⟩
  | .local _ .vmem, ⟨8, _⟩ => ⟨S16x14, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x1, .f32⟩
  | .local _ .vmem, ⟨16, _⟩ => ⟨S10000x1, .f32⟩
  | .local _ .vmem, ⟨17, _⟩ => ⟨S8x16, .f32⟩
  | .local _ .vmem, ⟨18, _⟩ => ⟨S1x8, .f32⟩
  | .local _ .vmem, ⟨19, _⟩ => ⟨S8x16, .f32⟩
  | .local _ .vmem, ⟨20, _⟩ => ⟨S10000x8, .f32⟩
  | .local _ .vmem, ⟨21, _⟩ => ⟨S10000x8, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S100000x14 : S_.BroadcastsInDim S100000x14 (![] : Fin 0 → Fin S100000x14.rank)
  shapeCasts_S16_S1x16 : S16.ShapeCasts S1x16
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x14_S10000x14_0_0 : ∀ a, (![0, 0] : Fin 2 → Nat) a + S10000x14.size a ≤ S10000x14.size a
  h_S10000x14 : 0 < S10000x14.numel
  shapeCasts_S10000x14_S10000x14 : S10000x14.ShapeCasts S10000x14
  broadcasts_S10000x1_S10000x14 : S10000x1.Broadcasts S10000x14
  bitsLt_bf16_f32 : FTy.bits .bf16 < FTy.bits .f32
  inb_S16x14_S16x14_0_0 : ∀ a, (![0, 0] : Fin 2 → Nat) a + S16x14.size a ≤ S16x14.size a
  h_S16x14 : 0 < S16x14.numel
  transposes_S16x14_p1_0_S14x16 : S16x14.Transposes [1, 0] S14x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S8_S1x8 : S8.ShapeCasts S1x8
  shapeCasts_S10000x16_S10000x16 : S10000x16.ShapeCasts S10000x16
  broadcasts_S10000x1_S10000x16 : S10000x1.Broadcasts S10000x16
  inb_S8x16_S8x16_0_0 : ∀ a, (![0, 0] : Fin 2 → Nat) a + S8x16.size a ≤ S8x16.size a
  h_S8x16 : 0 < S8x16.numel
  transposes_S8x16_p1_0_S16x8 : S8x16.Transposes [1, 0] S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  scatter_S100000_S6400000x1_S6400000_n_0_0_1_wf : ScatterDims.WF S100000 S6400000x1 S6400000 [] [0] [0] 1
  gather_S100000x14_S6400000x1_S6400000x14_1_0_n_n_0_1_114_wf : GatherDims.WF S100000x14 S6400000x1 S6400000x14 [1] [0] [] [0] [] 1 ![1, 14]
  scatter_S100000x14_S6400000x1_S6400000x14_1_0_0_1_wf : ScatterDims.WF S100000x14 S6400000x1 S6400000x14 [1] [0] [0] 1
  dot_S10000x14_S14x16_S10000x16_1_0_0_1_n_n_wf : DotDims.WF S10000x14 S14x16 S10000x16 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S10000x16_S16x8_S10000x8_1_0_0_1_n_n_wf : DotDims.WF S10000x16 S16x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x14.size a ≤ S100000x14.size a
  hwx0_1 : ∀ i : grid0.Coords, EltTy.bits .f32 = 32 ∨ (Rect.block (s := S100000x14) S10000x14.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x14.size a ≤ S16x14.size a
  hwx0_3 : ∀ i : grid0.Coords, EltTy.bits .f32 = 32 ∨ (Rect.block (s := S16x14) S16x14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x14.size a ≤ S16x14.size a
  hwx0_5 : ∀ i : grid0.Coords, EltTy.bits .f32 = 32 ∨ (Rect.block (s := S16x14) S16x14.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x16.size a ≤ S8x16.size a
  hwx1_3 : ∀ i : grid1.Coords, EltTy.bits .f32 = 32 ∨ (Rect.block (s := S8x16) S8x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16.size a ≤ S8x16.size a
  hwx1_5 : ∀ i : grid1.Coords, EltTy.bits .f32 = 32 ∨ (Rect.block (s := S8x16) S8x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x8.size a ≤ S100000x8.size a
  hwx1_6 : ∀ i : grid1.Coords, EltTy.bits .f32 = 32 ∨ (Rect.block (s := S100000x8) S10000x8.size (cc1_transform_6 i) (hinb1_6 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x14_S6400000x1_S6400000x14_1_0_n_n_0_1_114 : GatherDims S100000x14 S6400000x1 S6400000x14 where
  offsetDims := [1]
  collapsedSliceDims := [0]
  operandBatchingDims := []
  startIndicesBatchingDims := []
  startIndexMap := [0]
  indexVectorDim := 1
  sliceSizes := ![1, 14]
  wf := gather_S100000x14_S6400000x1_S6400000x14_1_0_n_n_0_1_114_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def dot_S10000x14_S14x16_S10000x16_1_0_0_1_n_n : DotDims S10000x14 S14x16 S10000x16 where
  lhsContracting := [1]
  rhsContracting := [0]
  lhsNonContracting := [0]
  rhsNonContracting := [1]
  lhsBatch := []
  rhsBatch := []
  wf := dot_S10000x14_S14x16_S10000x16_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf

abbrev win0_0 : Pipeline.Window sig grid0 :=
  Pipeline.Window.ofSpec (Memref.whole main_v17) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x14.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x14.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S8x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S8x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x8.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x14 : Shape := ⟨2, ![100000, 14]⟩
abbrev S2x6400000 : Shape := ⟨2, ![2, 6400000]⟩
abbrev S6400000x4 : Shape := ⟨2, ![6400000, 4]⟩
abbrev S16x14 : Shape := ⟨2, ![16, 14]⟩
abbrev S16 : Shape := ⟨1, ![16]⟩
abbrev S8x16 : Shape := ⟨2, ![8, 16]⟩
abbrev S8 : Shape := ⟨1, ![8]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x14 : Shape := ⟨2, ![6400000, 14]⟩
abbrev S100000 : Shape := ⟨1, ![100000]⟩
abbrev S100000x1 : Shape := ⟨2, ![100000, 1]⟩
abbrev S14x16 : Shape := ⟨2, ![14, 16]⟩
abbrev S100000x16 : Shape := ⟨2, ![100000, 16]⟩
abbrev S1x16 : Shape := ⟨2, ![1, 16]⟩
abbrev S6400000x16 : Shape := ⟨2, ![6400000, 16]⟩
abbrev S16x8 : Shape := ⟨2, ![16, 8]⟩
abbrev S100000x8 : Shape := ⟨2, ![100000, 8]⟩
abbrev S1x8 : Shape := ⟨2, ![1, 8]⟩

abbrev nBuf : Space → Nat
  | .hbm => 82
  | .vmem => 0
  | .smem => 0
  | _ => 0

abbrev bufTy : (tb : Table) → Fin (tcTables nBuf tb) → BufTy
  | .hbm, ⟨0, _⟩ => ⟨S100000x14, .f32⟩
  | .hbm, ⟨1, _⟩ => ⟨S2x6400000, .i32⟩
  | .hbm, ⟨2, _⟩ => ⟨S6400000x4, .f32⟩
  | .hbm, ⟨3, _⟩ => ⟨S16x14, .f32⟩
  | .hbm, ⟨4, _⟩ => ⟨S16, .f32⟩
  | .hbm, ⟨5, _⟩ => ⟨S16x14, .f32⟩
  | .hbm, ⟨6, _⟩ => ⟨S8x16, .f32⟩
  | .hbm, ⟨7, _⟩ => ⟨S8, .f32⟩
  | .hbm, ⟨8, _⟩ => ⟨S8x16, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x14, .f32⟩
  | .hbm, ⟨22, _⟩ => ⟨S_, .f32⟩
  | .hbm, ⟨23, _⟩ => ⟨S100000x14, .f32⟩
  | .hbm, ⟨24, _⟩ => ⟨S6400000x1, .i32⟩
  | .hbm, ⟨25, _⟩ => ⟨S100000x14, .f32⟩
  | .hbm, ⟨26, _⟩ => ⟨S_, .f32⟩
  | .hbm, ⟨27, _⟩ => ⟨S6400000, .f32⟩
  | .hbm, ⟨28, _⟩ => ⟨S_, .f32⟩
  | .hbm, ⟨29, _⟩ => ⟨S100000, .f32⟩
  | .hbm, ⟨30, _⟩ => ⟨S6400000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x14, .f32⟩
  | .hbm, ⟨37, _⟩ => ⟨S100000x14, .f32⟩
  | .hbm, ⟨38, _⟩ => ⟨S14x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S14x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S_, .i32⟩
  | .hbm, ⟨50, _⟩ => ⟨S6400000, .i32⟩
  | .hbm, ⟨51, _⟩ => ⟨S6400000, .i1⟩
  | .hbm, ⟨52, _⟩ => ⟨S_, .i32⟩
  | .hbm, ⟨53, _⟩ => ⟨S6400000, .i32⟩
  | .hbm, ⟨54, _⟩ => ⟨S6400000, .i32⟩
  | .hbm, ⟨55, _⟩ => ⟨S6400000, .i32⟩
  | .hbm, ⟨56, _⟩ => ⟨S6400000x1, .i32⟩
  | .hbm, ⟨57, _⟩ => ⟨S6400000x16, .f32⟩
  | .hbm, ⟨58, _⟩ => ⟨S_, .f32⟩
  | .hbm, ⟨59, _⟩ => ⟨S100000x16, .f32⟩
  | .hbm, ⟨60, _⟩ => ⟨S6400000x1, .i32⟩
  | .hbm, ⟨61, _⟩ => ⟨S100000x16, .f32⟩
  | .hbm, ⟨62, _⟩ => ⟨S_, .f32⟩
  | .hbm, ⟨63, _⟩ => ⟨S6400000, .f32⟩
  | .hbm, ⟨64, _⟩ => ⟨S_, .f32⟩
  | .hbm, ⟨65, _⟩ => ⟨S100000, .f32⟩
  | .hbm, ⟨66, _⟩ => ⟨S6400000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x16, .f32⟩
  | .hbm, ⟨73, _⟩ => ⟨S100000x16, .f32⟩
  | .hbm, ⟨74, _⟩ => ⟨S16x8, .f32⟩
  | .hbm, ⟨75, _⟩ => ⟨S100000x8, .f32⟩
  | .hbm, ⟨76, _⟩ => ⟨S1x8, .f32⟩
  | .hbm, ⟨77, _⟩ => ⟨S100000x8, .f32⟩
  | .hbm, ⟨78, _⟩ => ⟨S100000x8, .f32⟩
  | .hbm, ⟨79, _⟩ => ⟨S16x8, .f32⟩
  | .hbm, ⟨80, _⟩ => ⟨S100000x8, .f32⟩
  | .hbm, ⟨81, _⟩ => ⟨S100000x8, .f32⟩
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x14 : S_.BroadcastsInDim S100000x14 (![] : Fin 0 → Fin S100000x14.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  transposes_S16x14_S14x16_1_0 : S16x14.Transposes [1, 0] S14x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  gather_S100000x14_S6400000x1_S6400000x14_1_0_n_n_0_1_114_wf : GatherDims.WF S100000x14 S6400000x1 S6400000x14 [1] [0] [] [0] [] 1 ![1, 14]
  scatter_S100000x14_S6400000x1_S6400000x14_1_0_0_1_wf : ScatterDims.WF S100000x14 S6400000x1 S6400000x14 [1] [0] [0] 1
  scatter_S100000_S6400000x1_S6400000_n_0_0_1_wf : ScatterDims.WF S100000 S6400000x1 S6400000 [] [0] [0] 1
  dot_S100000x14_S14x16_S100000x16_1_0_0_1_n_n_wf : DotDims.WF S100000x14 S14x16 S100000x16 [1] [0] [0] [1] [] []
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x8_S100000x8_1_0_0_1_n_n_wf : DotDims.WF S100000x16 S16x8 S100000x8 [1] [0] [0] [1] [] []

variable [Facts₀]

def gather_S100000x14_S6400000x1_S6400000x14_1_0_n_n_0_1_114 : GatherDims S100000x14 S6400000x1 S6400000x14 where
  offsetDims := [1]
  collapsedSliceDims := [0]
  operandBatchingDims := []
  startIndicesBatchingDims := []
  startIndexMap := [0]
  indexVectorDim := 1
  sliceSizes := ![1, 14]
  wf := gather_S100000x14_S6400000x1_S6400000x14_1_0_n_n_0_1_114_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x14_S14x16_S100000x16_1_0_0_1_n_n : DotDims S100000x14 S14x16 S100000x16 where
  lhsContracting := [1]
  rhsContracting := [0]
  lhsNonContracting := [0]
  rhsNonContracting := [1]
  lhsBatch := []
  rhsBatch := []
  wf := dot_S100000x14_S14x16_S100000x16_1_0_0_1_n_n_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.KRun.lean ====
/-
  The kernel program's run with its result named.

  @main is four segments: the host operations up to the first pallas_call, that call, the host operations up to the
  second, and the second call.  Every weakly fair execution from a memory with zero counters terminates without a
  fault, and the final memory holds, at every buffer no region scopes, the contents the segments' fold `W4` gives it.
  Read at the result buffer this names the program's value; read at the nine arguments it says they end unchanged.
-/
import proofs.«169182_j48679159333231_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W4`, and the argument arrays end as launched. -/
theorem run_named : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Bridge

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LayerSpec.lean ====
/-
  One graph-convolution layer with mean aggregation, entry by entry, on the extended reals.

  For a node `p` and an output channel `c` the layer's value before its activation is

      ( Σ_j (s(p,j) / max(deg(p), 1)) · W_l(c,j)  +  b(c) )  +  Σ_j x(p,j) · W_r(c,j)

  where `s(p,·)` is the sum of the features of `p`'s in-neighbours, `deg(p)` their number, and both weight matrices are
  stored `[out, in]`.  The degree is carried as a column `[a, 1]` and the bias as a row `[1, h]`.  The same expression
  reads a block of rows and the whole array: only the number of rows `a` differs.

  `body_apply` is the arithmetic a block of rows goes through on the matrix unit — the quotient by the broadcast
  clamped degree, two products with the transposed weights into zero accumulators, the bias row broadcast down the
  rows — read at an entry.  Every step is exact on the extended reals and no step needs finiteness: the two sides
  are the same expression.
-/
import Idealize.ShloMosaic.Lib.ValueIdx
import Idealize.ShloMosaic.Lib.ValueLayout
import Idealize.ShloMosaic.Lib.Pipeline.Value
import Idealize.ShloMosaic.PureOps.Ideal.Laws
import proofs.«169182_j48679159333231_1_alg».proof.Proof.LibPlainDot
import proofs.«169182_j48679159333231_1_alg».proof.Proof.LibKeepdims
import proofs.«169182_j48679159333231_1_alg».proof.Proof.LibRowBroadcast

noncomputable section

namespace Cert.Sage

open Idealize.ShloMosaic Idealize.ShloMosaic.ValueIdx

/-- The real number 1 as the float word the programs spell it with. -/
abbrev one : Ideal .f32 := Ideal.ofBits .f32 0x3F800000#32
/-- The real number 0 as the float word the programs spell it with. -/
abbrev zero : Ideal .f32 := Ideal.ofBits .f32 0x00000000#32

variable {a k h : ℕ}

/-- Entry `(p, c)` of a mean-aggregation layer before its activation: the neighbour sum of row `p` divided by the
    degree clamped at 1, through `W_l`, plus the bias, plus the row itself through `W_r`. -/
def colEntry (S X : FVec Ideal ⟨2, ![a, k]⟩ .f32) (C : FVec Ideal ⟨2, ![a, 1]⟩ .f32)
    (Wl : FVec Ideal ⟨2, ![h, k]⟩ .f32) (B : FVec Ideal ⟨2, ![1, h]⟩ .f32) (Wr : FVec Ideal ⟨2, ![h, k]⟩ .f32)
    (p : Fin a) (c : Fin h) : Ideal .f32 :=
  ((∑ j : Fin k, Ideal.div (S (ix2 p j)) (max (C (ix2 p (0 : Fin 1))) one) * Wl (ix2 c j)) + B (ix2 (0 : Fin 1) c))
    + ∑ j : Fin k, X (ix2 p j) * Wr (ix2 c j)

/-- The layer without activation, as an array. -/
def layerLin (S X : FVec Ideal ⟨2, ![a, k]⟩ .f32) (C : FVec Ideal ⟨2, ![a, 1]⟩ .f32)
    (Wl : FVec Ideal ⟨2, ![h, k]⟩ .f32) (B : FVec Ideal ⟨2, ![1, h]⟩ .f32) (Wr : FVec Ideal ⟨2, ![h, k]⟩ .f32) :
    FVec Ideal ⟨2, ![a, h]⟩ .f32 := fun i => colEntry S X C Wl B Wr (i 0) (i 1)

/-- The layer followed by the clamp at 0, as an array. -/
def layerRelu (S X : FVec Ideal ⟨2, ![a, k]⟩ .f32) (C : FVec Ideal ⟨2, ![a, 1]⟩ .f32)
    (Wl : FVec Ideal ⟨2, ![h, k]⟩ .f32) (B : FVec Ideal ⟨2, ![1, h]⟩ .f32) (Wr : FVec Ideal ⟨2, ![h, k]⟩ .f32) :
    FVec Ideal ⟨2, ![a, h]⟩ .f32 := fun i => max (colEntry S X C Wl B Wr (i 0) (i 1)) zero

/-- The block arithmetic of the layer on the matrix unit, at entry `(p, c)`: the rows' quotient by the clamped degree
    column broadcast over the lanes, times the transposed `W_l` into a zero accumulator, plus the bias row broadcast
    down the rows, plus the rows times the transposed `W_r` into a zero accumulator.  A change of float format is the
    identity on the extended reals. -/
theorem body_apply (D : DotDims ⟨2, ![a, k]⟩ ⟨2, ![k, h]⟩ ⟨2, ![a, h]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hb : (⟨2, ![a, 1]⟩ : Shape).Broadcasts ⟨2, ![a, k]⟩)
    (hlt : FTy.bf16.bits < FTy.f32.bits)
    (htr : (⟨2, ![h, k]⟩ : Shape).Transposes [1, 0] ⟨2, ![k, h]⟩)
    (hrow : (⟨2, ![1, h]⟩ : Shape).Broadcasts ⟨2, ![a, h]⟩)
    (S X : FVec Ideal ⟨2, ![a, k]⟩ .f32) (C : FVec Ideal ⟨2, ![a, 1]⟩ .f32)
    (Wl : FVec Ideal ⟨2, ![h, k]⟩ .f32) (B : FVec Ideal ⟨2, ![1, h]⟩ .f32) (Wr : FVec Ideal ⟨2, ![h, k]⟩ .f32)
    (p : Fin a) (c : Fin h) :
    addf (addf
        (matmul D none
          (truncf .bf16 (divf S (broadcastTo ⟨2, ![a, k]⟩
            (maximumf C (broadcast ⟨2, ![a, 1]⟩ (Scalar.ofBits (F := Ideal) .f32 0x3F800000#32))) hb)) hlt)
          (transpose ⟨2, ![k, h]⟩ [1, 0] (truncf .bf16 Wl hlt) htr)
          (constant (F := Ideal) ⟨2, ![a, h]⟩ .f32 0x00000000#32))
        (broadcastTo ⟨2, ![a, h]⟩ B hrow))
      (matmul D none (truncf .bf16 X hlt) (transpose ⟨2, ![k, h]⟩ [1, 0] (truncf .bf16 Wr hlt) htr)
        (constant (F := Ideal) ⟨2, ![a, h]⟩ .f32 0x00000000#32)) (ix2 p c)
      = colEntry S X C Wl B Wr p c := by
  unfold colEntry
  rw [addf_apply, addf_apply, PlainDot.matmul_zero_apply D none hr hs hl0 hl1 hr0 hr1,
    PlainDot.matmul_zero_apply D none hr hs hl0 hl1 hr0 hr1, RowBroadcast.broadcastTo_row_apply]
  congr 1
  · congr 1
    refine Finset.sum_congr rfl fun j _ => ?_
    rw [truncf_apply, divf_apply, Keepdims.broadcastTo_a1_ab_apply, maximumf_apply, broadcast_apply,
      transpose_ix2_apply, truncf_apply]
    rfl
  · refine Finset.sum_congr rfl fun j _ => ?_
    rw [truncf_apply, transpose_ix2_apply, truncf_apply]

/-- The layer's entry at `(p, c)` reads only row `p` of the node arrays and row `c` of the weights: arrays that agree
    there — a block of rows and the whole array, say — give the same entry. -/
theorem colEntry_congr {a' : ℕ} (S X : FVec Ideal ⟨2, ![a, k]⟩ .f32) (C : FVec Ideal ⟨2, ![a, 1]⟩ .f32)
    (Wl : FVec Ideal ⟨2, ![h, k]⟩ .f32) (B : FVec Ideal ⟨2, ![1, h]⟩ .f32) (Wr : FVec Ideal ⟨2, ![h, k]⟩ .f32)
    (S' X' : FVec Ideal ⟨2, ![a', k]⟩ .f32) (C' : FVec Ideal ⟨2, ![a', 1]⟩ .f32)
    (Wl' : FVec Ideal ⟨2, ![h, k]⟩ .f32) (B' : FVec Ideal ⟨2, ![1, h]⟩ .f32) (Wr' : FVec Ideal ⟨2, ![h, k]⟩ .f32)
    (p : Fin a) (p' : Fin a') (c c' : Fin h)
    (hS : ∀ j, S (ix2 p j) = S' (ix2 p' j)) (hX : ∀ j, X (ix2 p j) = X' (ix2 p' j))
    (hC : C (ix2 p (0 : Fin 1)) = C' (ix2 p' (0 : Fin 1)))
    (hWl : ∀ j, Wl (ix2 c j) = Wl' (ix2 c' j)) (hB : B (ix2 (0 : Fin 1) c) = B' (ix2 (0 : Fin 1) c'))
    (hWr : ∀ j, Wr (ix2 c j) = Wr' (ix2 c' j)) :
    colEntry S X C Wl B Wr p c = colEntry S' X' C' Wl' B' Wr' p' c' := by
  unfold colEntry
  rw [hC, hB]
  simp only [hS, hX, hWl, hWr]

end Cert.Sage

end
-- ==== Proof.KPayload.lean ====
/-
  What the two kernel bodies compute on one block of 10000 rows, read at an entry.

  Each body loads a block of neighbour sums, the matching block of node features, the block's degree column, the two
  weight matrices and the bias row, and stores `Cert.Sage.colEntry` of them at every entry — followed, in the first
  layer only, by the clamp at 0.  The contraction records of the two matrix products are plain `[a, k] × [k, h]`
  records; their four operand-index facts are read off the records.
-/
import proofs.«169182_j48679159333231_1_alg».proof.Proof.Gen.KernelIdeal.Skeleton
import proofs.«169182_j48679159333231_1_alg».proof.Proof.LayerSpec

noncomputable section

namespace Cert.KernelIdeal.Bridge

open Idealize.ShloMosaic Idealize.ShloMosaic.ValueIdx Cert.KernelIdeal Cert.KernelIdeal.Gen Cert.Sage

/-! ## The first layer's contraction record: rows × 14 against 14 × 16 -/

theorem d0_l0 (i : S10000x16.Idx) (q : dot_S10000x14_S14x16_S10000x16_1_0_0_1_n_n.contr.Idx) :
    (dot_S10000x14_S14x16_S10000x16_1_0_0_1_n_n.lhsIdx i q 0).val = (i 0).val := by
  unfold DotDims.lhsIdx
  rw [dif_neg (show ¬(0 : Fin S10000x14.rank) ∈ dot_S10000x14_S14x16_S10000x16_1_0_0_1_n_n.lhsBatch by decide),
    dif_pos (show (0 : Fin S10000x14.rank) ∈ dot_S10000x14_S14x16_S10000x16_1_0_0_1_n_n.lhsNonContracting by decide)]
  rfl
theorem d0_l1 (i : S10000x16.Idx) (q : dot_S10000x14_S14x16_S10000x16_1_0_0_1_n_n.contr.Idx) :
    (dot_S10000x14_S14x16_S10000x16_1_0_0_1_n_n.lhsIdx i q 1).val = (q ⟨0, by decide⟩).val :=
  dot_S10000x14_S14x16_S10000x16_1_0_0_1_n_n.lhsIdx_val_of_single rfl i q
theorem d0_r0 (i : S10000x16.Idx) (q : dot_S10000x14_S14x16_S10000x16_1_0_0_1_n_n.contr.Idx) :
    (dot_S10000x14_S14x16_S10000x16_1_0_0_1_n_n.rhsIdx i q 0).val = (q ⟨0, by decide⟩).val :=
  dot_S10000x14_S14x16_S10000x16_1_0_0_1_n_n.rhsIdx_val_of_single rfl i q
theorem d0_r1 (i : S10000x16.Idx) (q : dot_S10000x14_S14x16_S10000x16_1_0_0_1_n_n.contr.Idx) :
    (dot_S10000x14_S14x16_S10000x16_1_0_0_1_n_n.rhsIdx i q 1).val = (i 1).val := by
  unfold DotDims.rhsIdx
  rw [dif_neg (show ¬(1 : Fin S14x16.rank) ∈ dot_S10000x14_S14x16_S10000x16_1_0_0_1_n_n.rhsBatch by decide),
    dif_pos (show (1 : Fin S14x16.rank) ∈ dot_S10000x14_S14x16_S10000x16_1_0_0_1_n_n.rhsNonContracting by decide)]
  rfl

/-! ## The second layer's contraction record: rows × 16 against 16 × 8 -/

theorem d1_l0 (i : S10000x8.Idx) (q : dot_S10000x16_S16x8_S10000x8_1_0_0_1_n_n.contr.Idx) :
    (dot_S10000x16_S16x8_S10000x8_1_0_0_1_n_n.lhsIdx i q 0).val = (i 0).val := by
  unfold DotDims.lhsIdx
  rw [dif_neg (show ¬(0 : Fin S10000x16.rank) ∈ dot_S10000x16_S16x8_S10000x8_1_0_0_1_n_n.lhsBatch by decide),
    dif_pos (show (0 : Fin S10000x16.rank) ∈ dot_S10000x16_S16x8_S10000x8_1_0_0_1_n_n.lhsNonContracting by decide)]
  rfl
theorem d1_l1 (i : S10000x8.Idx) (q : dot_S10000x16_S16x8_S10000x8_1_0_0_1_n_n.contr.Idx) :
    (dot_S10000x16_S16x8_S10000x8_1_0_0_1_n_n.lhsIdx i q 1).val = (q ⟨0, by decide⟩).val :=
  dot_S10000x16_S16x8_S10000x8_1_0_0_1_n_n.lhsIdx_val_of_single rfl i q
theorem d1_r0 (i : S10000x8.Idx) (q : dot_S10000x16_S16x8_S10000x8_1_0_0_1_n_n.contr.Idx) :
    (dot_S10000x16_S16x8_S10000x8_1_0_0_1_n_n.rhsIdx i q 0).val = (q ⟨0, by decide⟩).val :=
  dot_S10000x16_S16x8_S10000x8_1_0_0_1_n_n.rhsIdx_val_of_single rfl i q
theorem d1_r1 (i : S10000x8.Idx) (q : dot_S10000x16_S16x8_S10000x8_1_0_0_1_n_n.contr.Idx) :
    (dot_S10000x16_S16x8_S10000x8_1_0_0_1_n_n.rhsIdx i q 1).val = (i 1).val := by
  unfold DotDims.rhsIdx
  rw [dif_neg (show ¬(1 : Fin S16x8.rank) ∈ dot_S10000x16_S16x8_S10000x8_1_0_0_1_n_n.rhsBatch by decide),
    dif_pos (show (1 : Fin S16x8.rank) ∈ dot_S10000x16_S16x8_S10000x8_1_0_0_1_n_n.rhsNonContracting by decide)]
  rfl

/-! ## The two bodies at an entry -/

/-- The first layer's block, at row `p` of the block and channel `c`: the layer's entry, clamped at 0. -/
theorem pay0_apply (v0 : FVec Ideal S10000x1 .f32) (v4 v9 : FVec Ideal S10000x14 .f32) (v11 v13 : FVec Ideal S16x14 .f32)
    (v17 : FVec Ideal S1x16 .f32) (p : Fin 10000) (c : Fin 16) :
    k0_pay1 (F := Ideal) v0 v4 v9 v11 v13 v17 (ix2 p c) = max (colEntry v4 v9 v0 v11 v17 v13 p c) zero := by
  unfold k0_pay1
  simp only [shapeCast_self]
  rw [maximumf_apply, broadcast_apply,
    body_apply dot_S10000x14_S14x16_S10000x16_1_0_0_1_n_n rfl rfl d0_l0 d0_l1 d0_r0 d0_r1]
  rfl

/-- The second layer's block, at row `p` of the block and channel `c`: the layer's entry. -/
theorem pay1_apply (v0 : FVec Ideal S10000x1 .f32) (v4 v9 : FVec Ideal S10000x16 .f32) (v12 v14 : FVec Ideal S8x16 .f32)
    (v18 : FVec Ideal S1x8 .f32) (p : Fin 10000) (c : Fin 8) :
    k1_pay1 (F := Ideal) v0 v4 v9 v12 v14 v18 (ix2 p c) = colEntry v4 v9 v0 v12 v18 v14 p c := by
  unfold k1_pay1
  simp only [shapeCast_self]
  rw [body_apply dot_S10000x16_S16x8_S10000x8_1_0_0_1_n_n rfl rfl d1_l0 d1_l1 d1_r0 d1_r1]

end Cert.KernelIdeal.Bridge

end
-- ==== Proof.KRegion0.lean ====
/-
  The first layer's pallas_call, from blocks to the array.

  The grid has ten points; point `t` handles rows `10000·t … 10000·t + 9999`.  Its blocks of the neighbour sums, of the
  node features and of the degree column are those rows of their arrays; the weights and the bias row are fetched
  whole.  So what point `t` writes back is rows `10000·t …` of ONE array, the layer of the whole arrays (clamped at 0):
  an entry of the layer reads only its own row of the node arrays.  The ten blocks tile the output, hence after the
  call the output array is that layer.
-/
import proofs.«169182_j48679159333231_1_alg».proof.Proof.Gen.KernelIdeal.Frame
import proofs.«169182_j48679159333231_1_alg».proof.Proof.KPayload

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the three row-blocked inputs and the output move with the point along the rows,
    the weights and the bias stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer of the arrays as the call finds them. -/
theorem flushed0_eq (c : Dev nD) (t : Fin cfg0.N) :
    (dat0 V c).flushed 6 t = ((cfg0.win 6).blk t).view.read (Elt Ideal)
      (layerRelu (a := 100000) (k := 14) (h := 16) (V c main_v17) (V c main_arg0) (V c main_v19) (V c main_arg3) (V c main_v18) (V c main_arg5)) := by
  show (cfg0.win 6).cut (grid0.coords t) ((dat0 V c).after 6 t) = _
  rw [after0_6]
  unfold out0_6
  rw [View.canon_unit_zero hz0]
  simp only [View.ld_unit_zero (S := S10000x1) hz0, View.ld_unit_zero (S := S10000x14) hz0,
    View.ld_unit_zero (S := S16x14) hz0, View.ld_unit_zero (S := S1x16) hz0]
  obtain ⟨e00, e01, e10, e11, e20, e21, e30, e31, e40, e41, e50, e51, e60, e61⟩ := idx0 t
  refine funext fun (y : S10000x16.Idx) => ?_
  obtain ⟨p, q, rfl⟩ : ∃ (p : Fin 10000) (q : Fin 16), y = ix2 p q := ⟨y 0, y 1, eq_ix2 y⟩
  show k0_pay1 (F := Ideal) (iblk0 V c 2 t) (iblk0 V c 0 t) (iblk0 V c 1 t) (iblk0 V c 3 t) (iblk0 V c 5 t) (iblk0 V c 4 t) (ix2 p q)
    = layerRelu (a := 100000) (k := 14) (h := 16) (V c main_v17) (V c main_arg0) (V c main_v19) (V c main_arg3) (V c main_v18) (V c main_arg5) (((cfg0.win 6).blk t).view.emb (ix2 p q))
  refine (pay0_apply _ _ _ _ _ _ p q).trans ?_
  refine congrArg (max · zero) ?_
  refine colEntry_congr (a := 10000) (k := 14) (h := 16) (a' := 100000) _ _ _ _ _ _ _ _ _ _ _ _ p ((((cfg0.win 6).blk t).view.emb (ix2 p q)) 0) q ((((cfg0.win 6).blk t).view.emb (ix2 p q)) 1)
    (fun j => ?_) (fun j => ?_) ?_ (fun j => ?_) ?_ (fun j => ?_)
  ·
    show V c main_v17 (((cfg0.win 0).blk t).view.emb (ix2 p j)) = V c main_v17 (ix2 ((((cfg0.win 6).blk t).view.emb (ix2 p q)) 0) j)
    refine congrArg (V c main_v17) (funext fun ax => Fin.ext ?_)
    match ax with
    | ⟨0, _⟩ => show win0_0.index t (0 : Fin 2) * 10000 + 1 * p.val = win0_6.index t (0 : Fin 2) * 10000 + 1 * p.val; omega
    | ⟨1, _⟩ => show win0_0.index t (1 : Fin 2) * 14 + 1 * j.val = j.val; omega
  ·
    show V c main_arg0 (((cfg0.win 1).blk t).view.emb (ix2 p j)) = V c main_arg0 (ix2 ((((cfg0.win 6).blk t).view.emb (ix2 p q)) 0) j)
    refine congrArg (V c main_arg0) (funext fun ax => Fin.ext ?_)
    match ax with
    | ⟨0, _⟩ => show win0_1.index t (0 : Fin 2) * 10000 + 1 * p.val = win0_6.index t (0 : Fin 2) * 10000 + 1 * p.val; omega
    | ⟨1, _⟩ => show win0_1.index t (1 : Fin 2) * 14 + 1 * j.val = j.val; omega
  ·
    show V c main_v19 (((cfg0.win 2).blk t).view.emb (ix2 p (0 : Fin 1))) = V c main_v19 (ix2 ((((cfg0.win 6).blk t).view.emb (ix2 p q)) 0) (0 : Fin 1))
    refine congrArg (V c main_v19) (funext fun ax => Fin.ext ?_)
    match ax with
    | ⟨0, _⟩ => show win0_2.index t (0 : Fin 2) * 10000 + 1 * p.val = win0_6.index t (0 : Fin 2) * 10000 + 1 * p.val; omega
    | ⟨1, _⟩ => show win0_2.index t (1 : Fin 2) * 1 + 1 * 0 = 0; omega
  ·
    show V c main_arg3 (((cfg0.win 3).blk t).view.emb (ix2 q j)) = V c main_arg3 (ix2 ((((cfg0.win 6).blk t).view.emb (ix2 p q)) 1) j)
    refine congrArg (V c main_arg3) (funext fun ax => Fin.ext ?_)
    match ax with
    | ⟨0, _⟩ => show win0_3.index t (0 : Fin 2) * 16 + 1 * q.val = win0_6.index t (1 : Fin 2) * 16 + 1 * q.val; omega
    | ⟨1, _⟩ => show win0_3.index t (1 : Fin 2) * 14 + 1 * j.val = j.val; omega
  ·
    show V c main_v18 (((cfg0.win 4).blk t).view.emb (ix2 (0 : Fin 1) q)) = V c main_v18 (ix2 (0 : Fin 1) ((((cfg0.win 6).blk t).view.emb (ix2 p q)) 1))
    refine congrArg (V c main_v18) (funext fun ax => Fin.ext ?_)
    match ax with
    | ⟨0, _⟩ => show win0_4.index t (0 : Fin 2) * 1 + 1 * 0 = 0; omega
    | ⟨1, _⟩ => show win0_4.index t (1 : Fin 2) * 16 + 1 * q.val = win0_6.index t (1 : Fin 2) * 16 + 1 * q.val; omega
  ·
    show V c main_arg5 (((cfg0.win 5).blk t).view.emb (ix2 q j)) = V c main_arg5 (ix2 ((((cfg0.win 6).blk t).view.emb (ix2 p q)) 1) j)
    refine congrArg (V c main_arg5) (funext fun ax => Fin.ext ?_)
    match ax with
    | ⟨0, _⟩ => show win0_5.index t (0 : Fin 2) * 16 + 1 * q.val = win0_6.index t (1 : Fin 2) * 16 + 1 * q.val; omega
    | ⟨1, _⟩ => show win0_5.index t (1 : Fin 2) * 14 + 1 * j.val = j.val; omega

/-- An index of the output array is in point `t`'s block iff each coordinate is in the block's range on its axis. -/
theorem mem_blk0 (t : Fin cfg0.N) (i : S100000x16.Idx) :
    i ∈ ((cfg0.win 6).blk t).view.set ↔ ∀ a : Fin 2, win0_6.index t a * S10000x16.size a ≤ (i a).val
      ∧ (i a).val < win0_6.index t a * S10000x16.size a + S10000x16.size a := by
  show i ∈ ((View.whole main_v20).slice (win0_6.rect t)).set ↔ _
  rw [View.set_slice_whole, Rect.mem_set_unit]
  exact Iff.rfl

/-- Row `r` of the output lies in the block of point `r / 10000`: the ten blocks tile the array. -/
theorem cover0 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  obtain ⟨t, ht⟩ : ∃ t : Fin cfg0.N, t.val = (i 0).val / 10000 :=
    ⟨⟨(i 0).val / 10000, by show _ < 10; omega⟩, rfl⟩
  obtain ⟨-, -, -, -, -, -, -, -, -, -, -, -, e60, e61⟩ := idx0 t
  refine ⟨t, flush0_6 t, ?_⟩
  rw [mem_blk0]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 16 ≤ (i 1).val ∧ (i 1).val < win0_6.index t (1 : Fin 2) * 16 + 16
    omega

/-- After the call the output array is the layer of the arrays as the call finds them. -/
theorem final0 (c : Dev nD) :
    (dat0 V c).arrAt 6 cfg0.N
      = layerRelu (a := 100000) (k := 14) (h := 16) (V c main_v17) (V c main_arg0) (V c main_v19) (V c main_arg3) (V c main_v18) (V c main_arg5) :=
  (dat0 V c).arrAt_eq_of_cover 6 _ (fun t _ => flushed0_eq V c t) cover0

end Cert.KernelIdeal.Bridge

end
-- ==== Proof.KRegion1.lean ====
/-
  The second layer's pallas_call, from blocks to the array.

  The grid has ten points; point `t` handles rows `10000·t … 10000·t + 9999`.  Its blocks of the neighbour sums, of the
  node features and of the degree column are those rows of their arrays; the weights and the bias row are fetched
  whole.  So what point `t` writes back is rows `10000·t …` of ONE array, the layer of the whole arrays (with no activation):
  an entry of the layer reads only its own row of the node arrays.  The ten blocks tile the output, hence after the
  call the output array is that layer.
-/
import proofs.«169182_j48679159333231_1_alg».proof.Proof.Gen.KernelIdeal.Frame
import proofs.«169182_j48679159333231_1_alg».proof.Proof.KPayload

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the three row-blocked inputs and the output move with the point along the rows,
    the weights and the bias stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the layer of the arrays as the call finds them. -/
theorem flushed1_eq (c : Dev nD) (t : Fin cfg1.N) :
    (dat1 V c).flushed 6 t = ((cfg1.win 6).blk t).view.read (Elt Ideal)
      (layerLin (a := 100000) (k := 16) (h := 8) (V c main_v30) (V c main_v20) (V c main_v32) (V c main_arg6) (V c main_v31) (V c main_arg8)) := by
  show (cfg1.win 6).cut (grid1.coords t) ((dat1 V c).after 6 t) = _
  rw [after1_6]
  unfold out1_6
  rw [View.canon_unit_zero hz1]
  simp only [View.ld_unit_zero (S := S10000x1) hz1, View.ld_unit_zero (S := S10000x16) hz1,
    View.ld_unit_zero (S := S8x16) hz1, View.ld_unit_zero (S := S1x8) hz1]
  obtain ⟨e00, e01, e10, e11, e20, e21, e30, e31, e40, e41, e50, e51, e60, e61⟩ := idx1 t
  refine funext fun (y : S10000x8.Idx) => ?_
  obtain ⟨p, q, rfl⟩ : ∃ (p : Fin 10000) (q : Fin 8), y = ix2 p q := ⟨y 0, y 1, eq_ix2 y⟩
  show k1_pay1 (F := Ideal) (iblk1 V c 2 t) (iblk1 V c 0 t) (iblk1 V c 1 t) (iblk1 V c 3 t) (iblk1 V c 5 t) (iblk1 V c 4 t) (ix2 p q)
    = layerLin (a := 100000) (k := 16) (h := 8) (V c main_v30) (V c main_v20) (V c main_v32) (V c main_arg6) (V c main_v31) (V c main_arg8) (((cfg1.win 6).blk t).view.emb (ix2 p q))
  refine (pay1_apply _ _ _ _ _ _ p q).trans ?_
  refine colEntry_congr (a := 10000) (k := 16) (h := 8) (a' := 100000) _ _ _ _ _ _ _ _ _ _ _ _ p ((((cfg1.win 6).blk t).view.emb (ix2 p q)) 0) q ((((cfg1.win 6).blk t).view.emb (ix2 p q)) 1)
    (fun j => ?_) (fun j => ?_) ?_ (fun j => ?_) ?_ (fun j => ?_)
  ·
    show V c main_v30 (((cfg1.win 0).blk t).view.emb (ix2 p j)) = V c main_v30 (ix2 ((((cfg1.win 6).blk t).view.emb (ix2 p q)) 0) j)
    refine congrArg (V c main_v30) (funext fun ax => Fin.ext ?_)
    match ax with
    | ⟨0, _⟩ => show win1_0.index t (0 : Fin 2) * 10000 + 1 * p.val = win1_6.index t (0 : Fin 2) * 10000 + 1 * p.val; omega
    | ⟨1, _⟩ => show win1_0.index t (1 : Fin 2) * 16 + 1 * j.val = j.val; omega
  ·
    show V c main_v20 (((cfg1.win 1).blk t).view.emb (ix2 p j)) = V c main_v20 (ix2 ((((cfg1.win 6).blk t).view.emb (ix2 p q)) 0) j)
    refine congrArg (V c main_v20) (funext fun ax => Fin.ext ?_)
    match ax with
    | ⟨0, _⟩ => show win1_1.index t (0 : Fin 2) * 10000 + 1 * p.val = win1_6.index t (0 : Fin 2) * 10000 + 1 * p.val; omega
    | ⟨1, _⟩ => show win1_1.index t (1 : Fin 2) * 16 + 1 * j.val = j.val; omega
  ·
    show V c main_v32 (((cfg1.win 2).blk t).view.emb (ix2 p (0 : Fin 1))) = V c main_v32 (ix2 ((((cfg1.win 6).blk t).view.emb (ix2 p q)) 0) (0 : Fin 1))
    refine congrArg (V c main_v32) (funext fun ax => Fin.ext ?_)
    match ax with
    | ⟨0, _⟩ => show win1_2.index t (0 : Fin 2) * 10000 + 1 * p.val = win1_6.index t (0 : Fin 2) * 10000 + 1 * p.val; omega
    | ⟨1, _⟩ => show win1_2.index t (1 : Fin 2) * 1 + 1 * 0 = 0; omega
  ·
    show V c main_arg6 (((cfg1.win 3).blk t).view.emb (ix2 q j)) = V c main_arg6 (ix2 ((((cfg1.win 6).blk t).view.emb (ix2 p q)) 1) j)
    refine congrArg (V c main_arg6) (funext fun ax => Fin.ext ?_)
    match ax with
    | ⟨0, _⟩ => show win1_3.index t (0 : Fin 2) * 8 + 1 * q.val = win1_6.index t (1 : Fin 2) * 8 + 1 * q.val; omega
    | ⟨1, _⟩ => show win1_3.index t (1 : Fin 2) * 16 + 1 * j.val = j.val; omega
  ·
    show V c main_v31 (((cfg1.win 4).blk t).view.emb (ix2 (0 : Fin 1) q)) = V c main_v31 (ix2 (0 : Fin 1) ((((cfg1.win 6).blk t).view.emb (ix2 p q)) 1))
    refine congrArg (V c main_v31) (funext fun ax => Fin.ext ?_)
    match ax with
    | ⟨0, _⟩ => show win1_4.index t (0 : Fin 2) * 1 + 1 * 0 = 0; omega
    | ⟨1, _⟩ => show win1_4.index t (1 : Fin 2) * 8 + 1 * q.val = win1_6.index t (1 : Fin 2) * 8 + 1 * q.val; omega
  ·
    show V c main_arg8 (((cfg1.win 5).blk t).view.emb (ix2 q j)) = V c main_arg8 (ix2 ((((cfg1.win 6).blk t).view.emb (ix2 p q)) 1) j)
    refine congrArg (V c main_arg8) (funext fun ax => Fin.ext ?_)
    match ax with
    | ⟨0, _⟩ => show win1_5.index t (0 : Fin 2) * 8 + 1 * q.val = win1_6.index t (1 : Fin 2) * 8 + 1 * q.val; omega
    | ⟨1, _⟩ => show win1_5.index t (1 : Fin 2) * 16 + 1 * j.val = j.val; omega

/-- An index of the output array is in point `t`'s block iff each coordinate is in the block's range on its axis. -/
theorem mem_blk1 (t : Fin cfg1.N) (i : S100000x8.Idx) :
    i ∈ ((cfg1.win 6).blk t).view.set ↔ ∀ a : Fin 2, win1_6.index t a * S10000x8.size a ≤ (i a).val
      ∧ (i a).val < win1_6.index t a * S10000x8.size a + S10000x8.size a := by
  show i ∈ ((View.whole main_v33).slice (win1_6.rect t)).set ↔ _
  rw [View.set_slice_whole, Rect.mem_set_unit]
  exact Iff.rfl

/-- Row `r` of the output lies in the block of point `r / 10000`: the ten blocks tile the array. -/
theorem cover1 (i : S100000x8.Idx) :
    ∃ t : Fin cfg1.N, (cfg1.win 6).flush t = true ∧ i ∈ ((cfg1.win 6).blk t).view.set := by
  have hi0 : (i 0).val < 100000 := (i 0).isLt
  have hi1 : (i 1).val < 8 := (i 1).isLt
  obtain ⟨t, ht⟩ : ∃ t : Fin cfg1.N, t.val = (i 0).val / 10000 :=
    ⟨⟨(i 0).val / 10000, by show _ < 10; omega⟩, rfl⟩
  obtain ⟨-, -, -, -, -, -, -, -, -, -, -, -, e60, e61⟩ := idx1 t
  refine ⟨t, flush1_6 t, ?_⟩
  rw [mem_blk1]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 8 ≤ (i 1).val ∧ (i 1).val < win1_6.index t (1 : Fin 2) * 8 + 8
    omega

/-- After the call the output array is the layer of the arrays as the call finds them. -/
theorem final1 (c : Dev nD) :
    (dat1 V c).arrAt 6 cfg1.N
      = layerLin (a := 100000) (k := 16) (h := 8) (V c main_v30) (V c main_v20) (V c main_v32) (V c main_arg6) (V c main_v31) (V c main_arg8) :=
  (dat1 V c).arrAt_eq_of_cover 6 _ (fun t _ => flushed1_eq V c t) cover1

end Cert.KernelIdeal.Bridge

end
-- ==== Proof.RefLayers.lean ====
/-
  The reference program's two layers, read stage by stage, are the layer function of `Cert.Sage`.

  The reference divides the neighbour sums by the degrees clamped at 1 (a flat vector, broadcast to a column and then
  over the lanes), multiplies by the transposed `W_l`, adds the bias (a flat vector laid as a row and broadcast down
  the rows), adds the node features times the transposed `W_r`, and after the first layer clamps at 0.  Entry by
  entry that is `Cert.Sage.colEntry` with the degrees as a column and the bias as a row.  The neighbour sums and the
  degrees themselves (a gather and two scatter-adds over the edge list) are carried as the reference's own stages and
  never opened.
-/
import proofs.«169182_j48679159333231_1_alg».proof.Proof.Gen.ReferenceIdeal.Read
import proofs.«169182_j48679159333231_1_alg».proof.Proof.LayerSpec

noncomputable section

namespace Cert.ReferenceIdeal.Bridge

open Idealize.ShloMosaic Idealize.ShloMosaic.ValueIdx Cert.ReferenceIdeal Cert.ReferenceIdeal.Read Cert.Sage

/-! ## The stages' index functions at coordinates -/

theorem l0_lidx1 (p : Fin 100000) (c : Fin 16) (j : Fin 14) : lidx_main_v24 (ix2 p c) j = ix2 p j :=
  funext fun a => Fin.ext (by match a with | ⟨0, _⟩ => rfl | ⟨1, _⟩ => rfl)
theorem l0_ridx1 (p : Fin 100000) (c : Fin 16) (j : Fin 14) : ridx_main_v24 (ix2 p c) j = ix2 j c :=
  funext fun a => Fin.ext (by match a with | ⟨0, _⟩ => rfl | ⟨1, _⟩ => rfl)
theorem l0_lidx2 (p : Fin 100000) (c : Fin 16) (j : Fin 14) : lidx_main_v29 (ix2 p c) j = ix2 p j :=
  funext fun a => Fin.ext (by match a with | ⟨0, _⟩ => rfl | ⟨1, _⟩ => rfl)
theorem l0_ridx2 (p : Fin 100000) (c : Fin 16) (j : Fin 14) : ridx_main_v29 (ix2 p c) j = ix2 j c :=
  funext fun a => Fin.ext (by match a with | ⟨0, _⟩ => rfl | ⟨1, _⟩ => rfl)
theorem l0_tl (j : Fin 14) (c : Fin 16) : idx_main_v23 (ix2 j c) = ix2 c j :=
  funext fun a => Fin.ext (by match a with | ⟨0, _⟩ => rfl | ⟨1, _⟩ => rfl)
theorem l0_tr (j : Fin 14) (c : Fin 16) : idx_main_v28 (ix2 j c) = ix2 c j :=
  funext fun a => Fin.ext (by match a with | ⟨0, _⟩ => rfl | ⟨1, _⟩ => rfl)
theorem l0_bc2 (p : Fin 100000) (j : Fin 14) : idx_main_v21 (ix2 p j) = ix2 p (0 : Fin 1) :=
  funext fun a => Fin.ext (by match a with | ⟨0, _⟩ => rfl | ⟨1, _⟩ => rfl)
theorem l0_bc1 (p : Fin 100000) : idx_main_v20 (ix2 p (0 : Fin 1)) = ix1 p :=
  funext fun a => Fin.ext (by match a with | ⟨0, _⟩ => rfl)
theorem l0_rowb (p : Fin 100000) (c : Fin 16) : idx_main_v26 (ix2 p c) = ix2 (0 : Fin 1) c :=
  funext fun a => Fin.ext (by match a with | ⟨0, _⟩ => rfl | ⟨1, _⟩ => rfl)
theorem l0_rowa (c : Fin 16) : idx_main_v25 (ix2 (0 : Fin 1) c) = ix1 c :=
  funext fun a => Fin.ext (by match a with | ⟨0, _⟩ => rfl)

theorem l1_lidx1 (p : Fin 100000) (c : Fin 8) (j : Fin 16) : lidx_main_v52 (ix2 p c) j = ix2 p j :=
  funext fun a => Fin.ext (by match a with | ⟨0, _⟩ => rfl | ⟨1, _⟩ => rfl)
theorem l1_ridx1 (p : Fin 100000) (c : Fin 8) (j : Fin 16) : ridx_main_v52 (ix2 p c) j = ix2 j c :=
  funext fun a => Fin.ext (by match a with | ⟨0, _⟩ => rfl | ⟨1, _⟩ => rfl)
theorem l1_lidx2 (p : Fin 100000) (c : Fin 8) (j : Fin 16) : lidx_main_v57 (ix2 p c) j = ix2 p j :=
  funext fun a => Fin.ext (by match a with | ⟨0, _⟩ => rfl | ⟨1, _⟩ => rfl)
theorem l1_ridx2 (p : Fin 100000) (c : Fin 8) (j : Fin 16) : ridx_main_v57 (ix2 p c) j = ix2 j c :=
  funext fun a => Fin.ext (by match a with | ⟨0, _⟩ => rfl | ⟨1, _⟩ => rfl)
theorem l1_tl (j : Fin 16) (c : Fin 8) : idx_main_v51 (ix2 j c) = ix2 c j :=
  funext fun a => Fin.ext (by match a with | ⟨0, _⟩ => rfl | ⟨1, _⟩ => rfl)
theorem l1_tr (j : Fin 16) (c : Fin 8) : idx_main_v56 (ix2 j c) = ix2 c j :=
  funext fun a => Fin.ext (by match a with | ⟨0, _⟩ => rfl | ⟨1, _⟩ => rfl)
theorem l1_bc2 (p : Fin 100000) (j : Fin 16) : idx_main_v49 (ix2 p j) = ix2 p (0 : Fin 1) :=
  funext fun a => Fin.ext (by match a with | ⟨0, _⟩ => rfl | ⟨1, _⟩ => rfl)
theorem l1_bc1 (p : Fin 100000) : idx_main_v48 (ix2 p (0 : Fin 1)) = ix1 p :=
  funext fun a => Fin.ext (by match a with | ⟨0, _⟩ => rfl)
theorem l1_rowb (p : Fin 100000) (c : Fin 8) : idx_main_v54 (ix2 p c) = ix2 (0 : Fin 1) c :=
  funext fun a => Fin.ext (by match a with | ⟨0, _⟩ => rfl | ⟨1, _⟩ => rfl)
theorem l1_rowa (c : Fin 8) : idx_main_v53 (ix2 (0 : Fin 1) c) = ix1 c :=
  funext fun a => Fin.ext (by match a with | ⟨0, _⟩ => rfl)

/-! ## The two layers -/

/-- The reference's first layer, stage by stage, is the layer function of its neighbour sums, its node features and its
    degrees (laid as a column), its weights and its bias (laid as a row). -/
theorem ref_layer0 (x0 : (⟨S100000x14, .f32⟩ : BufTy).Contents (Elt Ideal)) (x1 : (⟨S2x6400000, .i32⟩ : BufTy).Contents (Elt Ideal))
    (x3 : (⟨S16x14, .f32⟩ : BufTy).Contents (Elt Ideal)) (x4 : (⟨S16, .f32⟩ : BufTy).Contents (Elt Ideal)) (x5 : (⟨S16x14, .f32⟩ : BufTy).Contents (Elt Ideal))
    (hc : (⟨1, ![100000]⟩ : Shape).ShapeCasts ⟨2, ![100000, 1]⟩) (hb : (⟨1, ![16]⟩ : Shape).ShapeCasts ⟨2, ![1, 16]⟩) :
    val_main_v31 (F := Ideal) x0 x1 x3 x4 x5
      = layerRelu (a := 100000) (k := 14) (h := 16) (val_main_v13 (F := Ideal) x0 x1) (x0)
          (shapeCast ⟨2, ![100000, 1]⟩ (val_main_v17 (F := Ideal) x1) hc) x3 (shapeCast ⟨2, ![1, 16]⟩ x4 hb) x5 := by
  funext i
  obtain ⟨p, c, rfl⟩ : ∃ (p : Fin 100000) (c : Fin 16), i = ix2 p c := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply, l0_rowb, l0_rowa]
  show max (((∑ j : Fin 14, _) + _) + ∑ j : Fin 14, _) _ = max (colEntry _ _ _ _ _ _ p c) zero
  refine congrArg (max · zero) ?_
  unfold colEntry
  rw [RowBroadcast.shapeCast_flat_apply, Keepdims.shapeCast_a_a1_apply]
  refine congrArg₂ (· + ·) (congrArg₂ (· + ·) ?_ rfl) ?_
  · refine Finset.sum_congr rfl fun j _ => ?_
    rw [l0_lidx1, l0_ridx1, val_main_v22_apply, val_main_v21_apply, l0_bc2, val_main_v20_apply, l0_bc1,
      val_main_v19_apply, val_main_v18_apply, val_main_cst_3_apply, val_main_v23_apply, l0_tl]
    rfl
  · refine Finset.sum_congr rfl fun j _ => ?_
    rw [l0_lidx2, l0_ridx2, val_main_v28_apply, l0_tr]

/-- The reference's second layer, stage by stage, is the layer function of its neighbour sums, its node features and its
    degrees (laid as a column), its weights and its bias (laid as a row). -/
theorem ref_layer1 (x0 : (⟨S100000x14, .f32⟩ : BufTy).Contents (Elt Ideal)) (x1 : (⟨S2x6400000, .i32⟩ : BufTy).Contents (Elt Ideal))
    (x3 : (⟨S16x14, .f32⟩ : BufTy).Contents (Elt Ideal)) (x4 : (⟨S16, .f32⟩ : BufTy).Contents (Elt Ideal)) (x5 : (⟨S16x14, .f32⟩ : BufTy).Contents (Elt Ideal))
    (x6 : (⟨S8x16, .f32⟩ : BufTy).Contents (Elt Ideal)) (x7 : (⟨S8, .f32⟩ : BufTy).Contents (Elt Ideal)) (x8 : (⟨S8x16, .f32⟩ : BufTy).Contents (Elt Ideal))
    (hc : (⟨1, ![100000]⟩ : Shape).ShapeCasts ⟨2, ![100000, 1]⟩) (hb : (⟨1, ![8]⟩ : Shape).ShapeCasts ⟨2, ![1, 8]⟩) :
    val_main_v58 (F := Ideal) x0 x1 x3 x4 x5 x6 x7 x8
      = layerLin (a := 100000) (k := 16) (h := 8) (val_main_v41 (F := Ideal) x0 x1 x3 x4 x5) (val_main_v31 (F := Ideal) x0 x1 x3 x4 x5)
          (shapeCast ⟨2, ![100000, 1]⟩ (val_main_v45 (F := Ideal) x1) hc) x6 (shapeCast ⟨2, ![1, 8]⟩ x7 hb) x8 := by
  funext i
  obtain ⟨p, c, rfl⟩ : ∃ (p : Fin 100000) (c : Fin 8), i = ix2 p c := ⟨i 0, i 1, eq_ix2 i⟩
  rw [val_main_v58_apply, val_main_v55_apply, val_main_v52_apply, val_main_v57_apply,
    val_main_v54_apply, val_main_v53_apply, l1_rowb, l1_rowa]
  show ((∑ j : Fin 16, _) + _) + ∑ j : Fin 16, _ = colEntry _ _ _ _ _ _ p c
  unfold colEntry
  rw [RowBroadcast.shapeCast_flat_apply, Keepdims.shapeCast_a_a1_apply]
  refine congrArg₂ (· + ·) (congrArg₂ (· + ·) ?_ rfl) ?_
  · refine Finset.sum_congr rfl fun j _ => ?_
    rw [l1_lidx1, l1_ridx1, val_main_v50_apply, val_main_v49_apply, l1_bc2, val_main_v48_apply, l1_bc1,
      val_main_v47_apply, val_main_v46_apply, val_main_cst_9_apply, val_main_v51_apply, l1_tl]
    rfl
  · refine Finset.sum_congr rfl fun j _ => ?_
    rw [l1_lidx2, l1_ridx2, val_main_v56_apply, l1_tr]

end Cert.ReferenceIdeal.Bridge

end
-- ==== Proof.KValue.lean ====
/-
  The kernel program's value: the result buffer after the run is the reference's own composed term of the arguments.

  Before the first pallas_call the host computes, from the edge list, the degrees (ones scattered onto zeros) and the
  neighbour sums of the node features (rows gathered at the sources, scattered onto zeros at the destinations), and
  lays the degrees as a column and the bias as a row.  These are the same operations, on the same operands, as the
  reference's, so they are carried as the reference's stages and never opened.  The first call leaves the first
  layer of them in its output array (`final0`), which is the reference's first layer (`ref_layer0`).  The host then
  gathers and scatters THAT array — again the reference's stage, applied to an equal array — and the second call
  leaves the second layer (`final1`), the reference's result (`ref_layer1`).
-/
import proofs.«169182_j48679159333231_1_alg».proof.Proof.Gen.KernelIdeal.Frame
import proofs.«169182_j48679159333231_1_alg».proof.Proof.Gen.ReferenceIdeal.Read
import proofs.«169182_j48679159333231_1_alg».proof.Proof.KRegion0
import proofs.«169182_j48679159333231_1_alg».proof.Proof.KRegion1
import proofs.«169182_j48679159333231_1_alg».proof.Proof.RefLayers
import Idealize.ShloMosaic.Lib.StableHlo.Run

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## The host operations before the first call, at the buffers the calls and the later host operations read -/

theorem pre_v17 (c : Dev nD) : W1 m ρ c (Proc.devRef .tc main_v17) = Cert.ReferenceIdeal.Read.val_main_v13 (F := Ideal) (m ((c : Thread nD τ).loc main_arg0)) (m ((c : Thread nD τ).loc main_arg1)) := by
  show StableHlo.after hostOps0 (W0 m ρ c) (Proc.devRef .tc main_v17) = _
  after_results_simp
  rfl
theorem pre_v19 (c : Dev nD) : W1 m ρ c (Proc.devRef .tc main_v19) = shapeCast S100000x1 (Cert.ReferenceIdeal.Read.val_main_v17 (F := Ideal) (m ((c : Thread nD τ).loc main_arg1))) shapeCasts_S100000_S100000x1 := by
  show StableHlo.after hostOps0 (W0 m ρ c) (Proc.devRef .tc main_v19) = _
  after_results
  rfl
theorem pre_v18 (c : Dev nD) : W1 m ρ c (Proc.devRef .tc main_v18) = shapeCast S1x16 (m ((c : Thread nD τ).loc main_arg4)) shapeCasts_S16_S1x16 := by
  show StableHlo.after hostOps0 (W0 m ρ c) (Proc.devRef .tc main_v18) = _
  after_results
  rfl
theorem pre_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
theorem pre_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
theorem pre_v7 (c : Dev nD) : W1 m ρ c (Proc.devRef .tc main_v7) = Cert.ReferenceIdeal.Read.val_main_v17 (F := Ideal) (m ((c : Thread nD τ).loc main_arg1)) := by
  show StableHlo.after hostOps0 (W0 m ρ c) (Proc.devRef .tc main_v7) = _
  after_results
  rfl
theorem pre_arg0 (c : Dev nD) : W1 m ρ c (Proc.devRef .tc main_arg0) = (m ((c : Thread nD τ).loc main_arg0)) := by
  show StableHlo.after hostOps0 (W0 m ρ c) (Proc.devRef .tc main_arg0) = _
  after_results
theorem pre_arg3 (c : Dev nD) : W1 m ρ c (Proc.devRef .tc main_arg3) = (m ((c : Thread nD τ).loc main_arg3)) := by
  show StableHlo.after hostOps0 (W0 m ρ c) (Proc.devRef .tc main_arg3) = _
  after_results
theorem pre_arg5 (c : Dev nD) : W1 m ρ c (Proc.devRef .tc main_arg5) = (m ((c : Thread nD τ).loc main_arg5)) := by
  show StableHlo.after hostOps0 (W0 m ρ c) (Proc.devRef .tc main_arg5) = _
  after_results
theorem pre_arg6 (c : Dev nD) : W1 m ρ c (Proc.devRef .tc main_arg6) = (m ((c : Thread nD τ).loc main_arg6)) := by
  show StableHlo.after hostOps0 (W0 m ρ c) (Proc.devRef .tc main_arg6) = _
  after_results
theorem pre_arg7 (c : Dev nD) : W1 m ρ c (Proc.devRef .tc main_arg7) = (m ((c : Thread nD τ).loc main_arg7)) := by
  show StableHlo.after hostOps0 (W0 m ρ c) (Proc.devRef .tc main_arg7) = _
  after_results
theorem pre_arg8 (c : Dev nD) : W1 m ρ c (Proc.devRef .tc main_arg8) = (m ((c : Thread nD τ).loc main_arg8)) := by
  show StableHlo.after hostOps0 (W0 m ρ c) (Proc.devRef .tc main_arg8) = _
  after_results

/-! ## The first call's output: the reference's first layer -/

theorem mid_v20 (c : Dev nD) :
    W2 m ρ c (Proc.devRef .tc main_v20) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 6).trans ((final0 (V1 m ρ) c).trans ?_)
  show layerRelu (a := 100000) (k := 14) (h := 16) (W1 m ρ c (Proc.devRef .tc main_v17)) (W1 m ρ c (Proc.devRef .tc main_arg0))
    (W1 m ρ c (Proc.devRef .tc main_v19)) (W1 m ρ c (Proc.devRef .tc main_arg3)) (W1 m ρ c (Proc.devRef .tc main_v18))
    (W1 m ρ c (Proc.devRef .tc main_arg5)) = _
  rw [pre_v17, pre_arg0, pre_v19, pre_arg3, pre_v18, pre_arg5]
  exact (Cert.ReferenceIdeal.Bridge.ref_layer0 _ _ _ _ _ shapeCasts_S100000_S100000x1 shapeCasts_S16_S1x16).symm

/-- A buffer the first call does not write holds after it what it held before. -/
theorem mid_of_ne (c : Dev nD) (b : Ref sig .tc) (hb : ∀ w, Pipeline.arrRef spec0 w ≠ b) :
    W2 m ρ c (Proc.devRef .tc b) = W1 m ρ c (Proc.devRef .tc b) := W2_of_ne m ρ c b hb

/-! ## The host operations between the calls -/

theorem post_v30 (c : Dev nD) :
    W3 m ρ c (Proc.devRef .tc main_v30) = Cert.ReferenceIdeal.Read.val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v30) = _
  after_results
  rw [mid_v20, mid_of_ne m ρ c main_v1 (by decide), mid_of_ne m ρ c main_v3 (by decide), pre_v1, pre_v3]
  rfl

theorem post_v20 (c : Dev nD) :
    W3 m ρ c (Proc.devRef .tc main_v20) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v20) = _
  after_results
  exact mid_v20 m ρ c

theorem post_v32 (c : Dev nD) :
    W3 m ρ c (Proc.devRef .tc main_v32) = shapeCast S100000x1 (Cert.ReferenceIdeal.Read.val_main_v45 (F := Ideal) (m ((c : Thread nD τ).loc main_arg1))) shapeCasts_S100000_S100000x1 := by
  show StableHlo.after hostOps1 (W2 m ρ c) (Proc.devRef .tc main_v32) = _
  after_results
  rw [mid_of_ne m ρ c main_v7 (by decide), pre_v7]
  rfl

theorem post_v31 (c : Dev nD) :
    W3 m ρ c (Proc.devRef .tc main_v31) = shapeCast S1x8 (m ((c : Thread nD τ).loc main_arg7)) shapeCasts_S8_S1x8 := by
  show StableHlo.after hostOps1 (W2 m ρ c) (Proc.devRef .tc main_v31) = _
  after_results
  rw [mid_of_ne m ρ c main_arg7 (by decide), pre_arg7]
  rfl

theorem post_arg6 (c : Dev nD) : W3 m ρ c (Proc.devRef .tc main_arg6) = (m ((c : Thread nD τ).loc main_arg6)) := by
  show StableHlo.after hostOps1 (W2 m ρ c) (Proc.devRef .tc main_arg6) = _
  after_results
  rw [mid_of_ne m ρ c main_arg6 (by decide), pre_arg6]

theorem post_arg8 (c : Dev nD) : W3 m ρ c (Proc.devRef .tc main_arg8) = (m ((c : Thread nD τ).loc main_arg8)) := by
  show StableHlo.after hostOps1 (W2 m ρ c) (Proc.devRef .tc main_arg8) = _
  after_results
  rw [mid_of_ne m ρ c main_arg8 (by decide), pre_arg8]

/-! ## The result -/

/-- After the run the result buffer holds the reference's composed term of the launch contents of the arguments. -/
theorem result_eq (c : Dev nD) :
    W4 m ρ c (Proc.devRef .tc main_v33) = Cert.ReferenceIdeal.Read.val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((final1 (V3 m ρ) c).trans ?_)
  show layerLin (a := 100000) (k := 16) (h := 8) (W3 m ρ c (Proc.devRef .tc main_v30)) (W3 m ρ c (Proc.devRef .tc main_v20))
    (W3 m ρ c (Proc.devRef .tc main_v32)) (W3 m ρ c (Proc.devRef .tc main_arg6)) (W3 m ρ c (Proc.devRef .tc main_v31))
    (W3 m ρ c (Proc.devRef .tc main_arg8)) = _
  rw [post_v30, post_v20, post_v32, post_arg6, post_v31, post_arg8]
  exact (Cert.ReferenceIdeal.Bridge.ref_layer1 _ _ _ _ _ _ _ _ shapeCasts_S100000_S100000x1 shapeCasts_S8_S1x8).symm

end Cert.KernelIdeal.Bridge

end
-- ==== Proof.lean ====
/-
  Two-layer graph convolution with mean aggregation: the fused per-node kernels against the plain reference.

  Both programs compute, for every node `p` and output channel `c` of a layer,

      ( Σ_j (s(p,j) / max(deg(p), 1)) · W_l(c,j)  +  b(c) )  +  Σ_j x(p,j) · W_r(c,j)

  with `s` the sum of the in-neighbours' features and `deg` their number, clamp the first layer at 0, and feed it to
  the second.  The kernel program leaves the gather and the two scatter-adds on the host, exactly as the reference
  spells them, and runs the rest of each layer in one pallas_call over ten blocks of 10000 rows; inside, the operands
  pass through bf16 and the weights are transposed before the matrix unit.  On the extended reals a change of float
  format is the identity and the matrix unit's product into a zero accumulator is the plain sum, so the two programs
  are the same expression entry by entry — no algebraic law is used and finiteness of the inputs is never needed.

  The pieces: `Cert.Sage` (the layer's entry and the block arithmetic), the two bodies at an entry, each call from
  blocks to its array, the reference's two layers stage by stage, the host operations around the calls read as the
  reference's own stages, and the kernel program's run with its result named.
-/
import proofs.«169182_j48679159333231_1_alg».proof.Defs
import proofs.«169182_j48679159333231_1_alg».proof.Proof.Gen.Kernel
import proofs.«169182_j48679159333231_1_alg».proof.Proof.Gen.Kernel.Skeleton
import proofs.«169182_j48679159333231_1_alg».proof.Proof.Gen.Kernel.Launch
import proofs.«169182_j48679159333231_1_alg».proof.Proof.Gen.Kernel.Points
import proofs.«169182_j48679159333231_1_alg».proof.Proof.Gen.Kernel.Frame
import proofs.«169182_j48679159333231_1_alg».proof.Proof.Gen.KernelIdeal
import proofs.«169182_j48679159333231_1_alg».proof.Proof.Gen.KernelIdeal.Skeleton
import proofs.«169182_j48679159333231_1_alg».proof.Proof.Gen.KernelIdeal.Launch
import proofs.«169182_j48679159333231_1_alg».proof.Proof.Gen.KernelIdeal.Points
import proofs.«169182_j48679159333231_1_alg».proof.Proof.Gen.KernelIdeal.Frame
import proofs.«169182_j48679159333231_1_alg».proof.Proof.Gen.ReferenceIdeal
import proofs.«169182_j48679159333231_1_alg».proof.Proof.Gen.ReferenceIdeal.Run
import proofs.«169182_j48679159333231_1_alg».proof.Proof.Gen.ReferenceIdeal.Read
import proofs.«169182_j48679159333231_1_alg».proof.Proof.Gen.Pre_finite_inputs
import proofs.«169182_j48679159333231_1_alg».proof.Proof.KRun
import proofs.«169182_j48679159333231_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_k : Cert.frame_Kernel :=
  fun m ρ _ => Cert.Kernel.Gen.frame m ρ

/-- So does the kernel program read on the extended reals. -/
theorem frame_ki : Cert.frame_KernelIdeal :=
  fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the reference's composed term of the arguments in their result
    buffers: the kernel program by `result_eq` over its named run, the reference by its generated run; the arguments
    agree, so the two terms are one. -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.KernelIdeal.Bridge.result_eq m ρ c), (h c).2⟩)
      (Cert.KernelIdeal.Bridge.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
